-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x15 : Shape := ⟨2, ![128, 15]⟩
abbrev S15 : Shape := ⟨1, ![15]⟩
abbrev S15x32 : Shape := ⟨2, ![15, 32]⟩
abbrev S32 : Shape := ⟨1, ![32]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x15 : S_.BroadcastsInDim S128x15 (![] : Fin 0 → Fin S128x15.rank)
  reducesTo_S128x15_S_d0_1 : S128x15.ReducesTo [0, 1] S_
  bcast_S_S15 : S_.BroadcastsInDim S15 (![] : Fin 0 → Fin S15.rank)
  reducesTo_S15_S_d0 : S15.ReducesTo [0] S_
  bcast_S_S15x32 : S_.BroadcastsInDim S15x32 (![] : Fin 0 → Fin S15x32.rank)
  reducesTo_S15x32_S_d0_1 : S15x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S15x32 1) : IVec S_ 1 :=
  let main_c_5 : IVec S_ 1 := constantI S_ 1 1#1
  let main_v17 : IVec S_ 1 := (fun x v => Host.reduce IntOp.andi x v reducesTo_S15x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x15 .f32) (main_arg3 : FVec F S15 .f32) (main_arg4 : FVec F S15x32 .f32) (main_arg5 : FVec F S32 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x15 .f32 := Host.absf main_arg2
  let main_cst_0 : FVec F S_ .f32 := constant S_ .f32 0x7F800000#32
  let main_v5 : FVec F S128x15 .f32 := broadcastInDim S128x15 ![] bcast_S_S128x15 main_cst_0
  let main_v6 : IVec S128x15 1 := cmpf .olt main_v4 main_v5
  let main_c_1 : IVec S_ 1 := constantI S_ 1 1#1
  let main_v7 : IVec S_ 1 := (fun x v => Host.reduce IntOp.andi x v reducesTo_S128x15_S_d0_1 h_S_) main_v6 main_c_1
  let main_v8 : IVec S_ 1 := andi main_v3 main_v7
  let main_v9 : FVec F S15 .f32 := Host.absf main_arg3
  let main_cst_2 : FVec F S_ .f32 := constant S_ .f32 0x7F800000#32
  let main_v10 : FVec F S15 .f32 := broadcastInDim S15 ![] bcast_S_S15 main_cst_2
  let main_v11 : IVec S15 1 := cmpf .olt main_v9 main_v10
  let main_c_3 : IVec S_ 1 := constantI S_ 1 1#1
  let main_v12 : IVec S_ 1 := (fun x v => Host.reduce IntOp.andi x v reducesTo_S15_S_d0 h_S_) main_v11 main_c_3
  let main_v13 : IVec S_ 1 := andi main_v8 main_v12
  let main_v14 : FVec F S15x32 .f32 := Host.absf main_arg4
  let main_cst_4 : FVec F S_ .f32 := constant S_ .f32 0x7F800000#32
  let main_v15 : FVec F S15x32 .f32 := broadcastInDim S15x32 ![] bcast_S_S15x32 main_cst_4
  let main_v16 : IVec S15x32 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x15 : Shape := ⟨2, ![128, 15]⟩
abbrev S15 : Shape := ⟨1, ![15]⟩
abbrev S15x32 : Shape := ⟨2, ![15, 32]⟩
abbrev S32 : Shape := ⟨1, ![32]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x15 : Shape := ⟨2, ![200000, 15]⟩
abbrev S8000x128 : Shape := ⟨2, ![8000, 128]⟩
abbrev S8000x15 : Shape := ⟨2, ![8000, 15]⟩
abbrev S6600000x15 : Shape := ⟨2, ![6600000, 15]⟩
abbrev S1x15 : Shape := ⟨2, ![1, 15]⟩
abbrev S200000x32 : Shape := ⟨2, ![200000, 32]⟩
abbrev S8000x32 : Shape := ⟨2, ![8000, 32]⟩
abbrev S6600000x32 : Shape := ⟨2, ![6600000, 32]⟩
abbrev S1x32 : Shape := ⟨2, ![1, 32]⟩

abbrev nBuf : Space → Nat
  | .hbm => 84
  | .vmem => 20
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x15, .f32⟩
  | .hbm, ⟨3, _⟩ => ⟨S15, .f32⟩
  | .hbm, ⟨4, _⟩ => ⟨S15x32, .f32⟩
  | .hbm, ⟨5, _⟩ => ⟨S32, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x15, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x15, .f32⟩
  | .hbm, ⟨56, _⟩ => ⟨S6600000x1, .f32⟩
  | .hbm, ⟨57, _⟩ => ⟨S6600000x15, .f32⟩
  | .hbm, ⟨58, _⟩ => ⟨S6600000x15, .f32⟩
  | .hbm, ⟨59, _⟩ => ⟨S_, .f32⟩
  | .hbm, ⟨60, _⟩ => ⟨S200000x15, .f32⟩
  | .hbm, ⟨61, _⟩ => ⟨S6600000x1, .i32⟩
  | .hbm, ⟨62, _⟩ => ⟨S200000x15, .f32⟩
  | .hbm, ⟨63, _⟩ => ⟨S1x15, .f32⟩
  | .hbm, ⟨64, _⟩ => ⟨S200000x15, .f32⟩
  | .hbm, ⟨65, _⟩ => ⟨S200000x32, .f32⟩
  | .hbm, ⟨66, _⟩ => ⟨S_, .i32⟩
  | .hbm, ⟨67, _⟩ => ⟨S6600000, .i32⟩
  | .hbm, ⟨68, _⟩ => ⟨S6600000, .i1⟩
  | .hbm, ⟨69, _⟩ => ⟨S_, .i32⟩
  | .hbm, ⟨70, _⟩ => ⟨S6600000, .i32⟩
  | .hbm, ⟨71, _⟩ => ⟨S6600000, .i32⟩
  | .hbm, ⟨72, _⟩ => ⟨S6600000, .i32⟩
  | .hbm, ⟨73, _⟩ => ⟨S6600000x1, .i32⟩
  | .hbm, ⟨74, _⟩ => ⟨S6600000x32, .f32⟩
  | .hbm, ⟨75, _⟩ => ⟨S6600000x1, .f32⟩
  | .hbm, ⟨76, _⟩ => ⟨S6600000x32, .f32⟩
  | .hbm, ⟨77, _⟩ => ⟨S6600000x32, .f32⟩
  | .hbm, ⟨78, _⟩ => ⟨S_, .f32⟩
  | .hbm, ⟨79, _⟩ => ⟨S200000x32, .f32⟩
  | .hbm, ⟨80, _⟩ => ⟨S6600000x1, .i32⟩
  | .hbm, ⟨81, _⟩ => ⟨S200000x32, .f32⟩
  | .hbm, ⟨82, _⟩ => ⟨S1x32, .f32⟩
  | .hbm, ⟨83, _⟩ => ⟨S200000x32, .f32⟩
  | .local _ .vmem, ⟨0, _⟩ => ⟨S8000x128, .f32⟩
  | .local _ .vmem, ⟨1, _⟩ => ⟨S8000x128, .f32⟩
  | .local _ .vmem, ⟨2, _⟩ => ⟨S128x15, .f32⟩
  | .local _ .vmem, ⟨3, _⟩ => ⟨S8000x15, .f32⟩
  | .local _ .vmem, ⟨4, _⟩ => ⟨S8000x15, .f32⟩
  | .local _ .vmem, ⟨5, _⟩ => ⟨S8000x15, .f32⟩
  | .local _ .vmem, ⟨6, _⟩ => ⟨S8000x15, .f32⟩
  | .local _ .vmem, ⟨7, _⟩ => ⟨S1x15, .f32⟩
  | .local _ .vmem, ⟨8, _⟩ => ⟨S8000x15, .f32⟩
  | .local _ .vmem, ⟨9, _⟩ => ⟨S8000x15, .f32⟩
  | .local _ .vmem, ⟨10, _⟩ => ⟨S8000x15, .f32⟩
  | .local _ .vmem, ⟨11, _⟩ => ⟨S8000x15, .f32⟩
  | .local _ .vmem, ⟨12, _⟩ => ⟨S15x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S1x32, .f32⟩
  | .local _ .vmem, ⟨18, _⟩ => ⟨S8000x32, .f32⟩
  | .local _ .vmem, ⟨19, _⟩ => ⟨S8000x32, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x15 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x15 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x15 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x15 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S15x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x15_S128x15_0_0 : ∀ a, (![0, 0] : Fin 2 → Nat) a + S128x15.size a ≤ S128x15.size a
  h_S128x15 : 0 < S128x15.numel
  inb_S8000x15_S8000x15_0_0 : ∀ a, (![0, 0] : Fin 2 → Nat) a + S8000x15.size a ≤ S8000x15.size a
  h_S8000x15 : 0 < S8000x15.numel
  bcast_S6600000x1_S6600000x15_0_1 : S6600000x1.BroadcastsInDim S6600000x15 (![0, 1] : Fin 2 → Fin S6600000x15.rank)
  bcast_S_S200000x15 : S_.BroadcastsInDim S200000x15 (![] : Fin 0 → Fin S200000x15.rank)
  shapeCasts_S15_S1x15 : S15.ShapeCasts S1x15
  shapeCasts_S8000x15_S8000x15 : S8000x15.ShapeCasts S8000x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S8000x15 : S1x15.Broadcasts S8000x15
  inb_S15x32_S15x32_0_0 : ∀ a, (![0, 0] : Fin 2 → Nat) a + S15x32.size a ≤ S15x32.size a
  h_S15x32 : 0 < S15x32.numel
  inb_S8000x32_S8000x32_0_0 : ∀ a, (![0, 0] : Fin 2 → Nat) a + S8000x32.size a ≤ S8000x32.size a
  h_S8000x32 : 0 < S8000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  shapeCasts_S8000x32_S8000x32 : S8000x32.ShapeCasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S8000x128_S128x15_S8000x15_1_0_0_1_n_n_wf : DotDims.WF S8000x128 S128x15 S8000x15 [1] [0] [0] [1] [] []
  gather_S200000x15_S6600000x1_S6600000x15_1_0_n_n_0_1_115_wf : GatherDims.WF S200000x15 S6600000x1 S6600000x15 [1] [0] [] [0] [] 1 ![1, 15]
  scatter_S200000x15_S6600000x1_S6600000x15_1_0_0_1_wf : ScatterDims.WF S200000x15 S6600000x1 S6600000x15 [1] [0] [0] 1
  dot_S8000x15_S15x32_S8000x32_1_0_0_1_n_n_wf : DotDims.WF S8000x15 S15x32 S8000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x15.size a ≤ S128x15.size a
  hwx0_1 : ∀ i : grid0.Coords, EltTy.bits .f32 = 32 ∨ (Rect.block (s := S128x15) S128x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x15.size a ≤ S200000x15.size a
  hwx0_2 : ∀ i : grid0.Coords, EltTy.bits .f32 = 32 ∨ (Rect.block (s := S200000x15) S8000x15.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x15.size a ≤ S200000x15.size a
  hwx1_0 : ∀ i : grid1.Coords, EltTy.bits .f32 = 32 ∨ (Rect.block (s := S200000x15) S8000x15.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x15.size a ≤ S1x15.size a
  hwx1_1 : ∀ i : grid1.Coords, EltTy.bits .f32 = 32 ∨ (Rect.block (s := S1x15) S1x15.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x15.size a ≤ S200000x15.size a
  hwx1_2 : ∀ i : grid1.Coords, EltTy.bits .f32 = 32 ∨ (Rect.block (s := S200000x15) S8000x15.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x15.size a ≤ S200000x15.size a
  hwx2_0 : ∀ i : grid2.Coords, EltTy.bits .f32 = 32 ∨ (Rect.block (s := S200000x15) S8000x15.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S15x32.size a ≤ S15x32.size a
  hwx2_1 : ∀ i : grid2.Coords, EltTy.bits .f32 = 32 ∨ (Rect.block (s := S15x32) S15x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S200000x32.size a
  hwx2_2 : ∀ i : grid2.Coords, EltTy.bits .f32 = 32 ∨ (Rect.block (s := S200000x32) S8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S200000x32.size a
  hwx3_0 : ∀ i : grid3.Coords, EltTy.bits .f32 = 32 ∨ (Rect.block (s := S200000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S200000x32.size a
  hwx3_2 : ∀ i : grid3.Coords, EltTy.bits .f32 = 32 ∨ (Rect.block (s := S200000x32) S8000x32.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S8000x128_S128x15_S8000x15_1_0_0_1_n_n : DotDims S8000x128 S128x15 S8000x15 where
  lhsContracting := [1]
  rhsContracting := [0]
  lhsNonContracting := [0]
  rhsNonContracting := [1]
  lhsBatch := []
  rhsBatch := []
  wf := dot_S8000x128_S128x15_S8000x15_1_0_0_1_n_n_wf
def gather_S200000x15_S6600000x1_S6600000x15_1_0_n_n_0_1_115 : GatherDims S200000x15 S6600000x1 S6600000x15 where
  offsetDims := [1]
  collapsedSliceDims := [0]
  operandBatchingDims := []
  startIndicesBatchingDims := []
  startIndexMap := [0]
  indexVectorDim := 1
  sliceSizes := ![1, 15]
  wf := gather_S200000x15_S6600000x1_S6600000x15_1_0_n_n_0_1_115_wf
def scatter_S200000x15_S6600000x1_S6600000x15_1_0_0_1 : ScatterDims S200000x15 S6600000x1 S6600000x15 where
  updateWindowDims := [1]
  insertedWindowDims := [0]
  scatterDimsToOperandDims := [0]
  indexVectorDim := 1
  wf := scatter_S200000x15_S6600000x1_S6600000x15_1_0_0_1_wf
def dot_S8000x15_S15x32_S8000x32_1_0_0_1_n_n : DotDims S8000x15 S15x32 S8000x32 where
  lhsContracting := [1]
  rhsContracting := [0]
  lhsNonContracting := [0]
  rhsNonContracting := [1]
  lhsBatch := []
  rhsBatch := []
  wf := dot_S8000x15_S15x32_S8000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x15.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x15.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x15.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8000x15.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S8000x15.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S15x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x15 : Shape := ⟨2, ![128, 15]⟩
abbrev S15 : Shape := ⟨1, ![15]⟩
abbrev S15x32 : Shape := ⟨2, ![15, 32]⟩
abbrev S32 : Shape := ⟨1, ![32]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x15 : Shape := ⟨2, ![200000, 15]⟩
abbrev S6600000x15 : Shape := ⟨2, ![6600000, 15]⟩
abbrev S1x15 : Shape := ⟨2, ![1, 15]⟩
abbrev S200000x32 : Shape := ⟨2, ![200000, 32]⟩
abbrev S6600000x32 : Shape := ⟨2, ![6600000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x15, .f32⟩
  | .hbm, ⟨3, _⟩ => ⟨S15, .f32⟩
  | .hbm, ⟨4, _⟩ => ⟨S15x32, .f32⟩
  | .hbm, ⟨5, _⟩ => ⟨S32, .f32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x15, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x15, .f32⟩
  | .hbm, ⟨56, _⟩ => ⟨S6600000x1, .f32⟩
  | .hbm, ⟨57, _⟩ => ⟨S6600000x15, .f32⟩
  | .hbm, ⟨58, _⟩ => ⟨S6600000x15, .f32⟩
  | .hbm, ⟨59, _⟩ => ⟨S_, .f32⟩
  | .hbm, ⟨60, _⟩ => ⟨S200000x15, .f32⟩
  | .hbm, ⟨61, _⟩ => ⟨S6600000x1, .i32⟩
  | .hbm, ⟨62, _⟩ => ⟨S200000x15, .f32⟩
  | .hbm, ⟨63, _⟩ => ⟨S1x15, .f32⟩
  | .hbm, ⟨64, _⟩ => ⟨S200000x15, .f32⟩
  | .hbm, ⟨65, _⟩ => ⟨S200000x15, .f32⟩
  | .hbm, ⟨66, _⟩ => ⟨S_, .f32⟩
  | .hbm, ⟨67, _⟩ => ⟨S200000x15, .f32⟩
  | .hbm, ⟨68, _⟩ => ⟨S200000x15, .f32⟩
  | .hbm, ⟨69, _⟩ => ⟨S_, .f32⟩
  | .hbm, ⟨70, _⟩ => ⟨S6600000, .f32⟩
  | .hbm, ⟨71, _⟩ => ⟨S_, .f32⟩
  | .hbm, ⟨72, _⟩ => ⟨S200000, .f32⟩
  | .hbm, ⟨73, _⟩ => ⟨S6600000x1, .i32⟩
  | .hbm, ⟨74, _⟩ => ⟨S200000, .f32⟩
  | .hbm, ⟨75, _⟩ => ⟨S_, .f32⟩
  | .hbm, ⟨76, _⟩ => ⟨S200000, .f32⟩
  | .hbm, ⟨77, _⟩ => ⟨S200000, .i1⟩
  | .hbm, ⟨78, _⟩ => ⟨S200000, .f32⟩
  | .hbm, ⟨79, _⟩ => ⟨S_, .f32⟩
  | .hbm, ⟨80, _⟩ => ⟨S_, .f32⟩
  | .hbm, ⟨81, _⟩ => ⟨S200000, .f32⟩
  | .hbm, ⟨82, _⟩ => ⟨S200000, .f32⟩
  | .hbm, ⟨83, _⟩ => ⟨S_, .i32⟩
  | .hbm, ⟨84, _⟩ => ⟨S6600000, .i32⟩
  | .hbm, ⟨85, _⟩ => ⟨S6600000, .i1⟩
  | .hbm, ⟨86, _⟩ => ⟨S_, .i32⟩
  | .hbm, ⟨87, _⟩ => ⟨S6600000, .i32⟩
  | .hbm, ⟨88, _⟩ => ⟨S6600000, .i32⟩
  | .hbm, ⟨89, _⟩ => ⟨S6600000, .i32⟩
  | .hbm, ⟨90, _⟩ => ⟨S6600000x1, .i32⟩
  | .hbm, ⟨91, _⟩ => ⟨S6600000, .f32⟩
  | .hbm, ⟨92, _⟩ => ⟨S_, .i32⟩
  | .hbm, ⟨93, _⟩ => ⟨S6600000, .i32⟩
  | .hbm, ⟨94, _⟩ => ⟨S6600000, .i1⟩
  | .hbm, ⟨95, _⟩ => ⟨S_, .i32⟩
  | .hbm, ⟨96, _⟩ => ⟨S6600000, .i32⟩
  | .hbm, ⟨97, _⟩ => ⟨S6600000, .i32⟩
  | .hbm, ⟨98, _⟩ => ⟨S6600000, .i32⟩
  | .hbm, ⟨99, _⟩ => ⟨S6600000x1, .i32⟩
  | .hbm, ⟨100, _⟩ => ⟨S6600000, .f32⟩
  | .hbm, ⟨101, _⟩ => ⟨S6600000, .f32⟩
  | .hbm, ⟨102, _⟩ => ⟨S200000x32, .f32⟩
  | .hbm, ⟨103, _⟩ => ⟨S_, .i32⟩
  | .hbm, ⟨104, _⟩ => ⟨S6600000, .i32⟩
  | .hbm, ⟨105, _⟩ => ⟨S6600000, .i1⟩
  | .hbm, ⟨106, _⟩ => ⟨S_, .i32⟩
  | .hbm, ⟨107, _⟩ => ⟨S6600000, .i32⟩
  | .hbm, ⟨108, _⟩ => ⟨S6600000, .i32⟩
  | .hbm, ⟨109, _⟩ => ⟨S6600000, .i32⟩
  | .hbm, ⟨110, _⟩ => ⟨S6600000x1, .i32⟩
  | .hbm, ⟨111, _⟩ => ⟨S6600000x32, .f32⟩
  | .hbm, ⟨112, _⟩ => ⟨S6600000x1, .f32⟩
  | .hbm, ⟨113, _⟩ => ⟨S6600000x32, .f32⟩
  | .hbm, ⟨114, _⟩ => ⟨S6600000x32, .f32⟩
  | .hbm, ⟨115, _⟩ => ⟨S_, .f32⟩
  | .hbm, ⟨116, _⟩ => ⟨S200000x32, .f32⟩
  | .hbm, ⟨117, _⟩ => ⟨S6600000x1, .i32⟩
  | .hbm, ⟨118, _⟩ => ⟨S200000x32, .f32⟩
  | .hbm, ⟨119, _⟩ => ⟨S1x32, .f32⟩
  | .hbm, ⟨120, _⟩ => ⟨S200000x32, .f32⟩
  | .hbm, ⟨121, _⟩ => ⟨S200000x32, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x15_0_1 : S6600000x1.BroadcastsInDim S6600000x15 (![0, 1] : Fin 2 → Fin S6600000x15.rank)
  bcast_S_S200000x15 : S_.BroadcastsInDim S200000x15 (![] : Fin 0 → Fin S200000x15.rank)
  bcast_S15_S1x15_1 : S15.BroadcastsInDim S1x15 (![1] : Fin 1 → Fin S1x15.rank)
  bcast_S1x15_S200000x15_0_1 : S1x15.BroadcastsInDim S200000x15 (![0, 1] : Fin 2 → Fin S200000x15.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x15_S200000x15_1_0_0_1_n_n_wf : DotDims.WF S200000x128 S128x15 S200000x15 [1] [0] [0] [1] [] []
  gather_S200000x15_S6600000x1_S6600000x15_1_0_n_n_0_1_115_wf : GatherDims.WF S200000x15 S6600000x1 S6600000x15 [1] [0] [] [0] [] 1 ![1, 15]
  scatter_S200000x15_S6600000x1_S6600000x15_1_0_0_1_wf : ScatterDims.WF S200000x15 S6600000x1 S6600000x15 [1] [0] [0] 1
  dot_S200000x15_S15x32_S200000x32_1_0_0_1_n_n_wf : DotDims.WF S200000x15 S15x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x15_S200000x15_1_0_0_1_n_n : DotDims S200000x128 S128x15 S200000x15 where
  lhsContracting := [1]
  rhsContracting := [0]
  lhsNonContracting := [0]
  rhsNonContracting := [1]
  lhsBatch := []
  rhsBatch := []
  wf := dot_S200000x128_S128x15_S200000x15_1_0_0_1_n_n_wf
def gather_S200000x15_S6600000x1_S6600000x15_1_0_n_n_0_1_115 : GatherDims S200000x15 S6600000x1 S6600000x15 where
  offsetDims := [1]
  collapsedSliceDims := [0]
  operandBatchingDims := []
  startIndicesBatchingDims := []
  startIndexMap := [0]
  indexVectorDim := 1
  sliceSizes := ![1, 15]
  wf := gather_S200000x15_S6600000x1_S6600000x15_1_0_n_n_0_1_115_wf
def scatter_S200000x15_S6600000x1_S6600000x15_1_0_0_1 : ScatterDims S200000x15 S6600000x1 S6600000x15 where
  updateWindowDims := [1]
  insertedWindowDims := [0]
  scatterDimsToOperandDims := [0]
  indexVectorDim := 1
  wf := scatter_S200000x15_S6600000x1_S6600000x15_1_0_0_1_wf
def dot_S200000x15_S15x32_S200000x32_1_0_0_1_n_n : DotDims S200000x15 S15x32 S200000x32 where
  lhsContracting := [1]
  rhsContracting := [0]
  lhsNonContracting := [0]
  rhsNonContracting := [1]
  lhsBatch := []
  rhsBatch := []
  wf := dot_S200000x15_S15x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

class Facts : Prop extends Facts₀ where

variable [Facts]
-- ==== Proof.KRun.lean ====
/-
  The kernel program's run with its result named.

  Every weakly fair execution of the program from zeroed counters terminates without a fault; the result buffer then
  holds what the last boundary of the run holds there (the contents after the fourth kernel launch has written its
  blocks back), and the six argument arrays are as they were at the launch.
-/
import proofs.«176888_j1159641170174_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments unchanged. -/
theorem run_main : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.KPay.lean ====
/-
  What each kernel body stores, read at an entry, over the extended reals.

  The two linear bodies store the product of their row block with the whole weight matrix (rounding to a narrower
  float format is the identity on extended reals, and the accumulator starts at zero): entry (p, e) is the sum over f
  of x(p, f) · w(f, e). The two bias bodies store their row block plus the one bias row, the first of them clamped
  below at zero: entry (p, e) is x(p, e) + b(0, e), or the larger of that and 0.
-/
import proofs.«176888_j1159641170174_1_alg».proof.Proof.Gen.KernelIdeal.Skeleton
import proofs.«176888_j1159641170174_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-- First linear body: a row block of the features times the first weight matrix. -/
theorem lin1 (x0 : Vec Ideal S8000x128 .f32) (x1 : Vec Ideal S128x15 .f32) (p : Fin 8000) (e : Fin 15) :
    k0_pay1 (F := Ideal) x0 x1 (ix2 p e) = ∑ f : Fin 128, x0 (ix2 p f) * x1 (ix2 f e) := by
  unfold k0_pay1
  exact Cert.Lib.Matmul.matmul_plain_zero_apply none (truncf .bf16 x0 bitsLt_bf16_f32) (truncf .bf16 x1 bitsLt_bf16_f32) p e

/-- Second linear body: a row block of the hidden features times the second weight matrix. -/
theorem lin2 (x0 : Vec Ideal S8000x15 .f32) (x1 : Vec Ideal S15x32 .f32) (p : Fin 8000) (e : Fin 32) :
    k2_pay1 (F := Ideal) x0 x1 (ix2 p e) = ∑ f : Fin 15, x0 (ix2 p f) * x1 (ix2 f e) := by
  unfold k2_pay1
  rw [shapeCast_self]
  exact Cert.Lib.Matmul.matmul_plain_zero_apply none (truncf .bf16 x0 bitsLt_bf16_f32) (truncf .bf16 x1 bitsLt_bf16_f32) p e

/-- First bias body: the row block plus the bias row, clamped below at zero. -/
theorem act1 (x0 : Vec Ideal S8000x15 .f32) (x1 : Vec Ideal S1x15 .f32) (p : Fin 8000) (e : Fin 15) :
    k1_pay1 (F := Ideal) x0 x1 (ix2 p e) = max (x0 (ix2 p e) + x1 (ix2 (0 : Fin 1) e)) 0 := by
  unfold k1_pay1
  rw [shapeCast_self, shapeCast_self]
  show max (x0 (ix2 p e) + broadcastTo S8000x15 x1 broadcasts_S1x15_S8000x15 (ix2 p e)) (Ideal.ofBits .f32 0x00000000#32) = _
  rw [broadcastTo_1b_ab_apply, Ideal.ofBits_zero_f32]

/-- Second bias body: the row block plus the bias row. -/
theorem bias2 (x0 : Vec Ideal S8000x32 .f32) (x1 : Vec Ideal S1x32 .f32) (p : Fin 8000) (e : Fin 32) :
    k3_pay1 (F := Ideal) x0 x1 (ix2 p e) = x0 (ix2 p e) + x1 (ix2 (0 : Fin 1) e) := by
  unfold k3_pay1
  rw [shapeCast_self, shapeCast_self]
  show x0 (ix2 p e) + broadcastTo S8000x32 x1 broadcasts_S1x32_S8000x32 (ix2 p e) = _
  rw [broadcastTo_1b_ab_apply]

end Cert.KernelIdeal.Pay

end
-- ==== Proof.Spec.lean ====
/-
  The two dense maps of a graph-convolution layer, as whole-array functions over the extended reals.

  `matMul X W` is the matrix product: entry (r, j) is the sum over k of X(r, k) · W(k, j).
  `addRow A b` adds the one-row matrix b to every row of A: entry (r, j) is A(r, j) + b(0, j).
  `relu A` clamps every entry below at zero.
  A layer is: product with the weights, a normalised sum over the edges (the same host operations on both sides,
  never opened here), then the bias row, then (first layer only) the clamp.
-/
import Idealize.ShloMosaic.Lib.ValueIdx
import Idealize.ShloMosaic.PureOps.Ideal

open scoped BigOperators

noncomputable section

namespace Cert.GCN

open Idealize.ShloMosaic Idealize.ShloMosaic.ValueIdx

/-- The matrix product of an `[M, K]` and a `[K, N]` matrix. -/
def matMul {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The one-row matrix `b` added to every row of `A`. -/
def addRow {M N : ℕ} (A : (⟨2, ![M, N]⟩ : Shape).Idx → EReal) (b : (⟨2, ![1, N]⟩ : Shape).Idx → EReal) :
    (⟨2, ![M, N]⟩ : Shape).Idx → EReal :=
  fun i => A i + b (ix2 (0 : Fin 1) (i 1))

/-- Every entry clamped below at zero. -/
def relu {M N : ℕ} (A : (⟨2, ![M, N]⟩ : Shape).Idx → EReal) : (⟨2, ![M, N]⟩ : Shape).Idx → EReal :=
  fun i => max (A i) 0

theorem matMul_apply {M K N : ℕ} (X : (⟨2, ![M, K]⟩ : Shape).Idx → EReal) (W : (⟨2, ![K, N]⟩ : Shape).Idx → EReal)
    (p : Fin M) (e : Fin N) : matMul X W (ix2 p e) = ∑ k : Fin K, X (ix2 p k) * W (ix2 k e) := rfl

theorem addRow_apply {M N : ℕ} (A : (⟨2, ![M, N]⟩ : Shape).Idx → EReal) (b : (⟨2, ![1, N]⟩ : Shape).Idx → EReal)
    (p : Fin M) (e : Fin N) : addRow A b (ix2 p e) = A (ix2 p e) + b (ix2 (0 : Fin 1) e) := rfl

theorem relu_apply {M N : ℕ} (A : (⟨2, ![M, N]⟩ : Shape).Idx → EReal) (p : Fin M) (e : Fin N) :
    relu A (ix2 p e) = max (A (ix2 p e)) 0 := rfl

end Cert.GCN

end
-- ==== Proof.KRegion0.lean ====
/-
  What each kernel launch leaves in its output array, as one whole-array function of the arrays it reads.

  A launch walks 25 grid points; at point t it fetches rows 8000 t … 8000 t + 7999 of its first operand and the whole
  of its second, runs the body, and writes the body's [8000, N] result back as rows 8000 t … 8000 t + 7999 of the
  output. The blocks tile the output, so the output ends at the function whose block t the body computes.
-/
import proofs.«176888_j1159641170174_1_alg».proof.Proof.Gen.KernelIdeal.Frame
import proofs.«176888_j1159641170174_1_alg».proof.Proof.KPay
import proofs.«176888_j1159641170174_1_alg».proof.Proof.Spec
import Idealize.ShloMosaic.Lib.Pipeline.Value
import Idealize.ShloMosaic.Lib.ValueIdx

set_option maxRecDepth 16384

open scoped BigOperators

noncomputable section

namespace Cert.KernelIdeal.Regions0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0: a row block of `main_arg0` times the whole of `main_arg2` -/

/-- The printed index maps at every grid point: the row-block windows sit at block row `t`, the weights at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, f) of the row block at point `t` is entry (8000 t + p, f) of the array. -/
theorem read0_0 (c : Dev nD) (t : Fin cfg0.N) (p : Fin 8000) (f : Fin 128) (r : Fin 200000) (hr : r.val = t.val * 8000 + p.val) :
    iblk0 V c 0 t (ix2 p f) = (V c main_arg0 : S200000x128.Idx → EReal) (ix2 r f) := by
  obtain ⟨e0, e1, -⟩ := idx0 t
  have h : ((cfg0.win 0).blk t).view.emb (ix2 p f) = (ix2 r f : S200000x128.Idx) := by
    funext a; apply Fin.ext
    match a with
    | ⟨0, _⟩ => show win0_0.index t (0 : Fin 2) * 8000 + 1 * p.val = r.val; rw [e0, hr]; omega
    | ⟨1, _⟩ => show win0_0.index t (1 : Fin 2) * 128 + 1 * f.val = f.val; rw [e1]; omega
  unfold iblk0
  rw [View.read_apply]
  show V c main_arg0 (((cfg0.win 0).blk t).view.emb (ix2 p f)) = V c main_arg0 (ix2 r f)
  rw [h]

/-- The weights' block at every point is the whole matrix. -/
theorem read0_1 (c : Dev nD) (t : Fin cfg0.N) (f : Fin 128) (e : Fin 15) :
    iblk0 V c 1 t (ix2 f e) = (V c main_arg2 : S128x15.Idx → EReal) (ix2 f e) := by
  obtain ⟨-, -, e2, e3, -⟩ := idx0 t
  have h : ((cfg0.win 1).blk t).view.emb (ix2 f e) = (ix2 f e : S128x15.Idx) := by
    funext a; apply Fin.ext
    match a with
    | ⟨0, _⟩ => show win0_1.index t (0 : Fin 2) * 128 + 1 * f.val = f.val; rw [e2]; omega
    | ⟨1, _⟩ => show win0_1.index t (1 : Fin 2) * 15 + 1 * e.val = e.val; rw [e3]; omega
  unfold iblk0
  rw [View.read_apply]
  show V c main_arg2 (((cfg0.win 1).blk t).view.emb (ix2 f e)) = V c main_arg2 (ix2 f e)
  rw [h]

/-- What point `t` writes back is block `t` of the matrix product of the two arrays as the launch finds them. -/
theorem flushed0 (c : Dev nD) (t : Fin cfg0.N) :
    (dat0 V c).flushed 2 t = ((cfg0.win 2).blk t).view.read (Elt Ideal)
      (GCN.matMul (V c main_arg0 : S200000x128.Idx → EReal) (V c main_arg2 : S128x15.Idx → EReal)) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x15) hz]
  have ht : t.val < 25 := lt_of_lt_of_eq t.isLt N_0
  obtain ⟨-, -, -, -, e4, e5⟩ := idx0 t
  funext j
  obtain ⟨p, e, rfl⟩ : ∃ (p : Fin 8000) (e : Fin 15), j = ix2 p e := ⟨j 0, j 1, eq_ix2 j⟩
  have hp : p.val < 8000 := p.isLt
  let r : Fin 200000 := ⟨t.val * 8000 + p.val, by omega⟩
  have h : ((cfg0.win 2).blk t).view.emb (ix2 p e) = (ix2 r e : S200000x15.Idx) := by
    funext a; apply Fin.ext
    match a with
    | ⟨0, _⟩ => show win0_2.index t (0 : Fin 2) * 8000 + 1 * p.val = t.val * 8000 + p.val; rw [e4]; omega
    | ⟨1, _⟩ => show win0_2.index t (1 : Fin 2) * 15 + 1 * e.val = e.val; rw [e5]; omega
  refine (Pay.lin1 (iblk0 V c 0 t) (iblk0 V c 1 t) p e).trans ?_
  rw [View.read_apply]
  show _ = GCN.matMul (V c main_arg0 : S200000x128.Idx → EReal) (V c main_arg2 : S128x15.Idx → EReal) (((cfg0.win 2).blk t).view.emb (ix2 p e))
  rw [h, GCN.matMul_apply]
  refine Finset.sum_congr rfl fun f _ => ?_
  rw [read0_0 V c t p f r rfl, read0_1 V c t f e]

/-- An index of the output array lies in point `t`'s block iff each coordinate is in the block's range. -/
theorem mem_blk0 (t : Fin cfg0.N) (i : S200000x15.Idx) :
    i ∈ ((cfg0.win 2).blk t).view.set ↔ ∀ a : Fin 2, win0_2.index t a * S8000x15.size a ≤ (i a).val ∧ (i a).val < win0_2.index t a * S8000x15.size a + S8000x15.size a := by
  show i ∈ ((View.whole main_v30).slice (win0_2.rect t)).set ↔ _
  rw [View.set_slice_whole, Rect.mem_set_unit]
  exact Iff.rfl

/-- The blocks tile the output: row `r` is in the block of point `r / 8000`. -/
theorem cover0 (i : S200000x15.Idx) : ∃ t : Fin cfg0.N, (cfg0.win 2).flush t = true ∧ i ∈ ((cfg0.win 2).blk t).view.set := by
  have hi0 : (i 0).val < 200000 := (i 0).isLt
  have hi1 : (i 1).val < 15 := (i 1).isLt
  let t : Fin cfg0.N := ⟨(i 0).val / 8000, lt_of_lt_of_eq (by omega : (i 0).val / 8000 < 25) N_0.symm⟩
  obtain ⟨-, -, -, -, e4, e5⟩ := idx0 t
  refine ⟨t, flush0_2 t, ?_⟩
  rw [mem_blk0]
  intro a
  match a with
  | ⟨0, _⟩ => show win0_2.index t (0 : Fin 2) * 8000 ≤ (i 0).val ∧ (i 0).val < win0_2.index t (0 : Fin 2) * 8000 + 8000; rw [e4]; show (i 0).val / 8000 * 8000 ≤ (i 0).val ∧ (i 0).val < (i 0).val / 8000 * 8000 + 8000; omega
  | ⟨1, _⟩ => show win0_2.index t (1 : Fin 2) * 15 ≤ (i 1).val ∧ (i 1).val < win0_2.index t (1 : Fin 2) * 15 + 15; rw [e5]; omega

/-- After the launch the output array is the matrix product of the two arrays as the launch finds them. -/
theorem final0 (c : Dev nD) : (dat0 V c).arrAt 2 cfg0.N
    = GCN.matMul (V c main_arg0 : S200000x128.Idx → EReal) (V c main_arg2 : S128x15.Idx → EReal) :=
  (dat0 V c).arrAt_eq_of_cover 2 _ (fun t _ => flushed0 V c t) cover0

end Cert.KernelIdeal.Regions0

end
-- ==== Proof.KRegion1.lean ====
/-
  What each kernel launch leaves in its output array, as one whole-array function of the arrays it reads.

  A launch walks 25 grid points; at point t it fetches rows 8000 t … 8000 t + 7999 of its first operand and the whole
  of its second, runs the body, and writes the body's [8000, N] result back as rows 8000 t … 8000 t + 7999 of the
  output. The blocks tile the output, so the output ends at the function whose block t the body computes.
-/
import proofs.«176888_j1159641170174_1_alg».proof.Proof.Gen.KernelIdeal.Frame
import proofs.«176888_j1159641170174_1_alg».proof.Proof.KPay
import proofs.«176888_j1159641170174_1_alg».proof.Proof.Spec
import Idealize.ShloMosaic.Lib.Pipeline.Value
import Idealize.ShloMosaic.Lib.ValueIdx

set_option maxRecDepth 16384

open scoped BigOperators

noncomputable section

namespace Cert.KernelIdeal.Regions1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 1: a row block of `main_v43` plus the bias row `main_v44` -/

/-- The printed index maps at every grid point: the row-block windows sit at block row `t`, the bias row at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, e) of the row block at point `t` is entry (8000 t + p, e) of the array. -/
theorem read1_0 (c : Dev nD) (t : Fin cfg1.N) (p : Fin 8000) (e : Fin 15) (r : Fin 200000) (hr : r.val = t.val * 8000 + p.val) :
    iblk1 V c 0 t (ix2 p e) = (V c main_v43 : S200000x15.Idx → EReal) (ix2 r e) := by
  obtain ⟨e0, e1, -⟩ := idx1 t
  have h : ((cfg1.win 0).blk t).view.emb (ix2 p e) = (ix2 r e : S200000x15.Idx) := by
    funext a; apply Fin.ext
    match a with
    | ⟨0, _⟩ => show win1_0.index t (0 : Fin 2) * 8000 + 1 * p.val = r.val; rw [e0, hr]; omega
    | ⟨1, _⟩ => show win1_0.index t (1 : Fin 2) * 15 + 1 * e.val = e.val; rw [e1]; omega
  unfold iblk1
  rw [View.read_apply]
  show V c main_v43 (((cfg1.win 0).blk t).view.emb (ix2 p e)) = V c main_v43 (ix2 r e)
  rw [h]

/-- The bias row's block at every point is the whole row. -/
theorem read1_1 (c : Dev nD) (t : Fin cfg1.N) (u : Fin 1) (e : Fin 15) :
    iblk1 V c 1 t (ix2 u e) = (V c main_v44 : S1x15.Idx → EReal) (ix2 u e) := by
  obtain ⟨-, -, e2, e3, -⟩ := idx1 t
  have h : ((cfg1.win 1).blk t).view.emb (ix2 u e) = (ix2 u e : S1x15.Idx) := by
    funext a; apply Fin.ext
    match a with
    | ⟨0, _⟩ => show win1_1.index t (0 : Fin 2) * 1 + 1 * u.val = u.val; rw [e2]; omega
    | ⟨1, _⟩ => show win1_1.index t (1 : Fin 2) * 15 + 1 * e.val = e.val; rw [e3]; omega
  unfold iblk1
  rw [View.read_apply]
  show V c main_v44 (((cfg1.win 1).blk t).view.emb (ix2 u e)) = V c main_v44 (ix2 u e)
  rw [h]

/-- What point `t` writes back is block `t` of the array plus the bias row, clamped at zero. -/
theorem flushed1 (c : Dev nD) (t : Fin cfg1.N) :
    (dat1 V c).flushed 2 t = ((cfg1.win 2).blk t).view.read (Elt Ideal)
      (GCN.relu (GCN.addRow (V c main_v43 : S200000x15.Idx → EReal) (V c main_v44 : S1x15.Idx → EReal))) := by
  show (cfg1.win 2).cut (grid1.coords t) ((dat1 V c).after 2 t) = _
  rw [after1_2]
  unfold out1_2
  rw [View.canon_unit_zero hz]
  simp only [View.ld_unit_zero (S := S8000x15) hz, View.ld_unit_zero (S := S1x15) hz]
  have ht : t.val < 25 := lt_of_lt_of_eq t.isLt N_1
  obtain ⟨-, -, -, -, e4, e5⟩ := idx1 t
  funext j
  obtain ⟨p, e, rfl⟩ : ∃ (p : Fin 8000) (e : Fin 15), j = ix2 p e := ⟨j 0, j 1, eq_ix2 j⟩
  have hp : p.val < 8000 := p.isLt
  let r : Fin 200000 := ⟨t.val * 8000 + p.val, by omega⟩
  have h : ((cfg1.win 2).blk t).view.emb (ix2 p e) = (ix2 r e : S200000x15.Idx) := by
    funext a; apply Fin.ext
    match a with
    | ⟨0, _⟩ => show win1_2.index t (0 : Fin 2) * 8000 + 1 * p.val = t.val * 8000 + p.val; rw [e4]; omega
    | ⟨1, _⟩ => show win1_2.index t (1 : Fin 2) * 15 + 1 * e.val = e.val; rw [e5]; omega
  refine (Pay.act1 (iblk1 V c 0 t) (iblk1 V c 1 t) p e).trans ?_
  rw [View.read_apply]
  show _ = GCN.relu (GCN.addRow (V c main_v43 : S200000x15.Idx → EReal) (V c main_v44 : S1x15.Idx → EReal)) (((cfg1.win 2).blk t).view.emb (ix2 p e))
  rw [h, GCN.relu_apply, GCN.addRow_apply, read1_0 V c t p e r rfl, read1_1 V c t 0 e]

/-- An index of the output array lies in point `t`'s block iff each coordinate is in the block's range. -/
theorem mem_blk1 (t : Fin cfg1.N) (i : S200000x15.Idx) :
    i ∈ ((cfg1.win 2).blk t).view.set ↔ ∀ a : Fin 2, win1_2.index t a * S8000x15.size a ≤ (i a).val ∧ (i a).val < win1_2.index t a * S8000x15.size a + S8000x15.size a := by
  show i ∈ ((View.whole main_v45).slice (win1_2.rect t)).set ↔ _
  rw [View.set_slice_whole, Rect.mem_set_unit]
  exact Iff.rfl

/-- The blocks tile the output: row `r` is in the block of point `r / 8000`. -/
theorem cover1 (i : S200000x15.Idx) : ∃ t : Fin cfg1.N, (cfg1.win 2).flush t = true ∧ i ∈ ((cfg1.win 2).blk t).view.set := by
  have hi0 : (i 0).val < 200000 := (i 0).isLt
  have hi1 : (i 1).val < 15 := (i 1).isLt
  let t : Fin cfg1.N := ⟨(i 0).val / 8000, lt_of_lt_of_eq (by omega : (i 0).val / 8000 < 25) N_1.symm⟩
  obtain ⟨-, -, -, -, e4, e5⟩ := idx1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; rw [e4]; show (i 0).val / 8000 * 8000 ≤ (i 0).val ∧ (i 0).val < (i 0).val / 8000 * 8000 + 8000; omega
  | ⟨1, _⟩ => show win1_2.index t (1 : Fin 2) * 15 ≤ (i 1).val ∧ (i 1).val < win1_2.index t (1 : Fin 2) * 15 + 15; rw [e5]; omega

/-- After the launch the output array is the input array plus the bias row, clamped at zero. -/
theorem final1 (c : Dev nD) : (dat1 V c).arrAt 2 cfg1.N
    = GCN.relu (GCN.addRow (V c main_v43 : S200000x15.Idx → EReal) (V c main_v44 : S1x15.Idx → EReal)) :=
  (dat1 V c).arrAt_eq_of_cover 2 _ (fun t _ => flushed1 V c t) cover1

end Cert.KernelIdeal.Regions1

end
-- ==== Proof.KRegion2.lean ====
/-
  What each kernel launch leaves in its output array, as one whole-array function of the arrays it reads.

  A launch walks 25 grid points; at point t it fetches rows 8000 t … 8000 t + 7999 of its first operand and the whole
  of its second, runs the body, and writes the body's [8000, N] result back as rows 8000 t … 8000 t + 7999 of the
  output. The blocks tile the output, so the output ends at the function whose block t the body computes.
-/
import proofs.«176888_j1159641170174_1_alg».proof.Proof.Gen.KernelIdeal.Frame
import proofs.«176888_j1159641170174_1_alg».proof.Proof.KPay
import proofs.«176888_j1159641170174_1_alg».proof.Proof.Spec
import Idealize.ShloMosaic.Lib.Pipeline.Value
import Idealize.ShloMosaic.Lib.ValueIdx

set_option maxRecDepth 16384

open scoped BigOperators

noncomputable section

namespace Cert.KernelIdeal.Regions2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 2: a row block of `main_v45` times the whole of `main_arg4` -/

/-- The printed index maps at every grid point: the row-block windows sit at block row `t`, the weights at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, f) of the row block at point `t` is entry (8000 t + p, f) of the array. -/
theorem read2_0 (c : Dev nD) (t : Fin cfg2.N) (p : Fin 8000) (f : Fin 15) (r : Fin 200000) (hr : r.val = t.val * 8000 + p.val) :
    iblk2 V c 0 t (ix2 p f) = (V c main_v45 : S200000x15.Idx → EReal) (ix2 r f) := by
  obtain ⟨e0, e1, -⟩ := idx2 t
  have h : ((cfg2.win 0).blk t).view.emb (ix2 p f) = (ix2 r f : S200000x15.Idx) := by
    funext a; apply Fin.ext
    match a with
    | ⟨0, _⟩ => show win2_0.index t (0 : Fin 2) * 8000 + 1 * p.val = r.val; rw [e0, hr]; omega
    | ⟨1, _⟩ => show win2_0.index t (1 : Fin 2) * 15 + 1 * f.val = f.val; rw [e1]; omega
  unfold iblk2
  rw [View.read_apply]
  show V c main_v45 (((cfg2.win 0).blk t).view.emb (ix2 p f)) = V c main_v45 (ix2 r f)
  rw [h]

/-- The weights' block at every point is the whole matrix. -/
theorem read2_1 (c : Dev nD) (t : Fin cfg2.N) (f : Fin 15) (e : Fin 32) :
    iblk2 V c 1 t (ix2 f e) = (V c main_arg4 : S15x32.Idx → EReal) (ix2 f e) := by
  obtain ⟨-, -, e2, e3, -⟩ := idx2 t
  have h : ((cfg2.win 1).blk t).view.emb (ix2 f e) = (ix2 f e : S15x32.Idx) := by
    funext a; apply Fin.ext
    match a with
    | ⟨0, _⟩ => show win2_1.index t (0 : Fin 2) * 15 + 1 * f.val = f.val; rw [e2]; omega
    | ⟨1, _⟩ => show win2_1.index t (1 : Fin 2) * 32 + 1 * e.val = e.val; rw [e3]; omega
  unfold iblk2
  rw [View.read_apply]
  show V c main_arg4 (((cfg2.win 1).blk t).view.emb (ix2 f e)) = V c main_arg4 (ix2 f e)
  rw [h]

/-- What point `t` writes back is block `t` of the matrix product of the two arrays as the launch finds them. -/
theorem flushed2 (c : Dev nD) (t : Fin cfg2.N) :
    (dat2 V c).flushed 2 t = ((cfg2.win 2).blk t).view.read (Elt Ideal)
      (GCN.matMul (V c main_v45 : S200000x15.Idx → EReal) (V c main_arg4 : S15x32.Idx → EReal)) := by
  show (cfg2.win 2).cut (grid2.coords t) ((dat2 V c).after 2 t) = _
  rw [after2_2]
  unfold out2_2
  rw [View.canon_unit_zero hz]
  simp only [View.ld_unit_zero (S := S8000x15) hz, View.ld_unit_zero (S := S15x32) hz]
  have ht : t.val < 25 := lt_of_lt_of_eq t.isLt N_2
  obtain ⟨-, -, -, -, e4, e5⟩ := idx2 t
  funext j
  obtain ⟨p, e, rfl⟩ : ∃ (p : Fin 8000) (e : Fin 32), j = ix2 p e := ⟨j 0, j 1, eq_ix2 j⟩
  have hp : p.val < 8000 := p.isLt
  let r : Fin 200000 := ⟨t.val * 8000 + p.val, by omega⟩
  have h : ((cfg2.win 2).blk t).view.emb (ix2 p e) = (ix2 r e : S200000x32.Idx) := by
    funext a; apply Fin.ext
    match a with
    | ⟨0, _⟩ => show win2_2.index t (0 : Fin 2) * 8000 + 1 * p.val = t.val * 8000 + p.val; rw [e4]; omega
    | ⟨1, _⟩ => show win2_2.index t (1 : Fin 2) * 32 + 1 * e.val = e.val; rw [e5]; omega
  refine (Pay.lin2 (iblk2 V c 0 t) (iblk2 V c 1 t) p e).trans ?_
  rw [View.read_apply]
  show _ = GCN.matMul (V c main_v45 : S200000x15.Idx → EReal) (V c main_arg4 : S15x32.Idx → EReal) (((cfg2.win 2).blk t).view.emb (ix2 p e))
  rw [h, GCN.matMul_apply]
  refine Finset.sum_congr rfl fun f _ => ?_
  rw [read2_0 V c t p f r rfl, read2_1 V c t f e]

/-- An index of the output array lies in point `t`'s block iff each coordinate is in the block's range. -/
theorem mem_blk2 (t : Fin cfg2.N) (i : S200000x32.Idx) :
    i ∈ ((cfg2.win 2).blk t).view.set ↔ ∀ a : Fin 2, win2_2.index t a * S8000x32.size a ≤ (i a).val ∧ (i a).val < win2_2.index t a * S8000x32.size a + S8000x32.size a := by
  show i ∈ ((View.whole main_v46).slice (win2_2.rect t)).set ↔ _
  rw [View.set_slice_whole, Rect.mem_set_unit]
  exact Iff.rfl

/-- The blocks tile the output: row `r` is in the block of point `r / 8000`. -/
theorem cover2 (i : S200000x32.Idx) : ∃ t : Fin cfg2.N, (cfg2.win 2).flush t = true ∧ i ∈ ((cfg2.win 2).blk t).view.set := by
  have hi0 : (i 0).val < 200000 := (i 0).isLt
  have hi1 : (i 1).val < 32 := (i 1).isLt
  let t : Fin cfg2.N := ⟨(i 0).val / 8000, lt_of_lt_of_eq (by omega : (i 0).val / 8000 < 25) N_2.symm⟩
  obtain ⟨-, -, -, -, e4, e5⟩ := idx2 t
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; rw [e4]; show (i 0).val / 8000 * 8000 ≤ (i 0).val ∧ (i 0).val < (i 0).val / 8000 * 8000 + 8000; omega
  | ⟨1, _⟩ => show win2_2.index t (1 : Fin 2) * 32 ≤ (i 1).val ∧ (i 1).val < win2_2.index t (1 : Fin 2) * 32 + 32; rw [e5]; omega

/-- After the launch the output array is the matrix product of the two arrays as the launch finds them. -/
theorem final2 (c : Dev nD) : (dat2 V c).arrAt 2 cfg2.N
    = GCN.matMul (V c main_v45 : S200000x15.Idx → EReal) (V c main_arg4 : S15x32.Idx → EReal) :=
  (dat2 V c).arrAt_eq_of_cover 2 _ (fun t _ => flushed2 V c t) cover2

end Cert.KernelIdeal.Regions2

end
-- ==== Proof.KRegion3.lean ====
/-
  What each kernel launch leaves in its output array, as one whole-array function of the arrays it reads.

  A launch walks 25 grid points; at point t it fetches rows 8000 t … 8000 t + 7999 of its first operand and the whole
  of its second, runs the body, and writes the body's [8000, N] result back as rows 8000 t … 8000 t + 7999 of the
  output. The blocks tile the output, so the output ends at the function whose block t the body computes.
-/
import proofs.«176888_j1159641170174_1_alg».proof.Proof.Gen.KernelIdeal.Frame
import proofs.«176888_j1159641170174_1_alg».proof.Proof.KPay
import proofs.«176888_j1159641170174_1_alg».proof.Proof.Spec
import Idealize.ShloMosaic.Lib.Pipeline.Value
import Idealize.ShloMosaic.Lib.ValueIdx

set_option maxRecDepth 16384

open scoped BigOperators

noncomputable section

namespace Cert.KernelIdeal.Regions3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 3: a row block of `main_v59` plus the bias row `main_v60` -/

/-- The printed index maps at every grid point: the row-block windows sit at block row `t`, the bias row at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, e) of the row block at point `t` is entry (8000 t + p, e) of the array. -/
theorem read3_0 (c : Dev nD) (t : Fin cfg3.N) (p : Fin 8000) (e : Fin 32) (r : Fin 200000) (hr : r.val = t.val * 8000 + p.val) :
    iblk3 V c 0 t (ix2 p e) = (V c main_v59 : S200000x32.Idx → EReal) (ix2 r e) := by
  obtain ⟨e0, e1, -⟩ := idx3 t
  have h : ((cfg3.win 0).blk t).view.emb (ix2 p e) = (ix2 r e : S200000x32.Idx) := by
    funext a; apply Fin.ext
    match a with
    | ⟨0, _⟩ => show win3_0.index t (0 : Fin 2) * 8000 + 1 * p.val = r.val; rw [e0, hr]; omega
    | ⟨1, _⟩ => show win3_0.index t (1 : Fin 2) * 32 + 1 * e.val = e.val; rw [e1]; omega
  unfold iblk3
  rw [View.read_apply]
  show V c main_v59 (((cfg3.win 0).blk t).view.emb (ix2 p e)) = V c main_v59 (ix2 r e)
  rw [h]

/-- The bias row's block at every point is the whole row. -/
theorem read3_1 (c : Dev nD) (t : Fin cfg3.N) (u : Fin 1) (e : Fin 32) :
    iblk3 V c 1 t (ix2 u e) = (V c main_v60 : S1x32.Idx → EReal) (ix2 u e) := by
  obtain ⟨-, -, e2, e3, -⟩ := idx3 t
  have h : ((cfg3.win 1).blk t).view.emb (ix2 u e) = (ix2 u e : S1x32.Idx) := by
    funext a; apply Fin.ext
    match a with
    | ⟨0, _⟩ => show win3_1.index t (0 : Fin 2) * 1 + 1 * u.val = u.val; rw [e2]; omega
    | ⟨1, _⟩ => show win3_1.index t (1 : Fin 2) * 32 + 1 * e.val = e.val; rw [e3]; omega
  unfold iblk3
  rw [View.read_apply]
  show V c main_v60 (((cfg3.win 1).blk t).view.emb (ix2 u e)) = V c main_v60 (ix2 u e)
  rw [h]

/-- What point `t` writes back is block `t` of the array plus the bias row. -/
theorem flushed3 (c : Dev nD) (t : Fin cfg3.N) :
    (dat3 V c).flushed 2 t = ((cfg3.win 2).blk t).view.read (Elt Ideal)
      (GCN.addRow (V c main_v59 : S200000x32.Idx → EReal) (V c main_v60 : S1x32.Idx → EReal)) := by
  show (cfg3.win 2).cut (grid3.coords t) ((dat3 V c).after 2 t) = _
  rw [after3_2]
  unfold out3_2
  rw [View.canon_unit_zero hz]
  simp only [View.ld_unit_zero (S := S8000x32) hz, View.ld_unit_zero (S := S1x32) hz]
  have ht : t.val < 25 := lt_of_lt_of_eq t.isLt N_3
  obtain ⟨-, -, -, -, e4, e5⟩ := idx3 t
  funext j
  obtain ⟨p, e, rfl⟩ : ∃ (p : Fin 8000) (e : Fin 32), j = ix2 p e := ⟨j 0, j 1, eq_ix2 j⟩
  have hp : p.val < 8000 := p.isLt
  let r : Fin 200000 := ⟨t.val * 8000 + p.val, by omega⟩
  have h : ((cfg3.win 2).blk t).view.emb (ix2 p e) = (ix2 r e : S200000x32.Idx) := by
    funext a; apply Fin.ext
    match a with
    | ⟨0, _⟩ => show win3_2.index t (0 : Fin 2) * 8000 + 1 * p.val = t.val * 8000 + p.val; rw [e4]; omega
    | ⟨1, _⟩ => show win3_2.index t (1 : Fin 2) * 32 + 1 * e.val = e.val; rw [e5]; omega
  refine (Pay.bias2 (iblk3 V c 0 t) (iblk3 V c 1 t) p e).trans ?_
  rw [View.read_apply]
  show _ = GCN.addRow (V c main_v59 : S200000x32.Idx → EReal) (V c main_v60 : S1x32.Idx → EReal) (((cfg3.win 2).blk t).view.emb (ix2 p e))
  rw [h, GCN.addRow_apply, read3_0 V c t p e r rfl, read3_1 V c t 0 e]

/-- An index of the output array lies in point `t`'s block iff each coordinate is in the block's range. -/
theorem mem_blk3 (t : Fin cfg3.N) (i : S200000x32.Idx) :
    i ∈ ((cfg3.win 2).blk t).view.set ↔ ∀ a : Fin 2, win3_2.index t a * S8000x32.size a ≤ (i a).val ∧ (i a).val < win3_2.index t a * S8000x32.size a + S8000x32.size a := by
  show i ∈ ((View.whole main_v61).slice (win3_2.rect t)).set ↔ _
  rw [View.set_slice_whole, Rect.mem_set_unit]
  exact Iff.rfl

/-- The blocks tile the output: row `r` is in the block of point `r / 8000`. -/
theorem cover3 (i : S200000x32.Idx) : ∃ t : Fin cfg3.N, (cfg3.win 2).flush t = true ∧ i ∈ ((cfg3.win 2).blk t).view.set := by
  have hi0 : (i 0).val < 200000 := (i 0).isLt
  have hi1 : (i 1).val < 32 := (i 1).isLt
  let t : Fin cfg3.N := ⟨(i 0).val / 8000, lt_of_lt_of_eq (by omega : (i 0).val / 8000 < 25) N_3.symm⟩
  obtain ⟨-, -, -, -, e4, e5⟩ := idx3 t
  refine ⟨t, flush3_2 t, ?_⟩
  rw [mem_blk3]
  intro a
  match a with
  | ⟨0, _⟩ => show win3_2.index t (0 : Fin 2) * 8000 ≤ (i 0).val ∧ (i 0).val < win3_2.index t (0 : Fin 2) * 8000 + 8000; rw [e4]; show (i 0).val / 8000 * 8000 ≤ (i 0).val ∧ (i 0).val < (i 0).val / 8000 * 8000 + 8000; omega
  | ⟨1, _⟩ => show win3_2.index t (1 : Fin 2) * 32 ≤ (i 1).val ∧ (i 1).val < win3_2.index t (1 : Fin 2) * 32 + 32; rw [e5]; omega

/-- After the launch the output array is the input array plus the bias row. -/
theorem final3 (c : Dev nD) : (dat3 V c).arrAt 2 cfg3.N
    = GCN.addRow (V c main_v59 : S200000x32.Idx → EReal) (V c main_v60 : S1x32.Idx → EReal) :=
  (dat3 V c).arrAt_eq_of_cover 2 _ (fun t _ => flushed3 V c t) cover3

end Cert.KernelIdeal.Regions3

end
-- ==== Proof.RefStages.lean ====
/-
  The reference's dense steps, read as the same whole-array functions the kernel launches compute, and its second
  copy of the edge weights.

  The reference multiplies by each weight matrix with one host product: entry (r, j) is the sum over k of the left
  operand at (r, k) times the right at (k, j). It adds a bias by broadcasting the bias vector to one row and the row
  to every row, and clamps by a maximum with the zero matrix. It also computes the degree-normalised edge weights
  once per layer; both copies are the same operations of the same edge list.
-/
import proofs.«176888_j1159641170174_1_alg».proof.Proof.RefRead
import proofs.«176888_j1159641170174_1_alg».proof.Proof.Spec
import Idealize.ShloMosaic.Lib.ValueIdx
import Idealize.ShloMosaic.PureOps.Ideal.Laws

set_option maxRecDepth 16384

open scoped BigOperators

noncomputable section

namespace Cert.ReferenceIdeal.Stages

open Cert.ReferenceIdeal Cert.ReferenceIdeal.ReadP
open Idealize.ShloMosaic Idealize.ShloMosaic.ValueIdx

/-- The first layer's product is the matrix product of the features and the first weight matrix. -/
theorem v30_eq (x0 : (⟨S200000x128, .f32⟩ : BufTy).Contents (Elt Ideal)) (x2 : (⟨S128x15, .f32⟩ : BufTy).Contents (Elt Ideal)) :
    val_main_v30 (F := Ideal) x0 x2 = GCN.matMul (x0 : S200000x128.Idx → EReal) (x2 : S128x15.Idx → EReal) := by
  funext i
  obtain ⟨p, e, rfl⟩ : ∃ (p : Fin 200000) (e : Fin 15), i = ix2 p e := ⟨i 0, i 1, eq_ix2 i⟩
  rw [val_main_v30_apply, GCN.matMul_apply]
  refine Finset.sum_congr rfl fun k _ => ?_
  have hl : lidx_main_v30 (ix2 p e) k = ix2 p k := funext fun a => by
    match a with
    | ⟨0, _⟩ => rfl
    | ⟨1, _⟩ => rfl
  have hr : ridx_main_v30 (ix2 p e) k = ix2 k e := funext fun a => by
    match a with
    | ⟨0, _⟩ => rfl
    | ⟨1, _⟩ => rfl
  rw [hl, hr]

/-- The first layer's bias and clamp: for any one-row matrix `b` whose entries are the bias vector's, the reference's
    clamped sum is the clamp of the aggregate plus that row. -/
theorem v47_eq (x0 : (⟨S200000x128, .f32⟩ : BufTy).Contents (Elt Ideal)) (x1 : (⟨S2x6400000, .i32⟩ : BufTy).Contents (Elt Ideal))
    (x2 : (⟨S128x15, .f32⟩ : BufTy).Contents (Elt Ideal)) (x3 : (⟨S15, .f32⟩ : BufTy).Contents (Elt Ideal))
    (b : S1x15.Idx → EReal) (hb : ∀ e : Fin 15, b (ix2 (0 : Fin 1) e) = (x3 : S15.Idx → EReal) (ix1 e)) :
    GCN.relu (GCN.addRow (val_main_v43 (F := Ideal) x0 x1 x2 : S200000x15.Idx → EReal) b) = val_main_v47 (F := Ideal) x0 x1 x2 x3 := by
  funext i
  obtain ⟨p, e, rfl⟩ : ∃ (p : Fin 200000) (e : Fin 15), i = ix2 p e := ⟨i 0, i 1, eq_ix2 i⟩
  rw [GCN.relu_apply, GCN.addRow_apply, hb, val_main_v47_apply, val_main_v46_apply, val_main_v45_apply, val_main_v44_apply,
    val_main_call1_v0_apply, val_main_call1_cst_apply]
  have hi : idx_main_v44 (idx_main_v45 (ix2 p e)) = ix1 e := funext fun a => by
    match a with
    | ⟨0, _⟩ => rfl
  rw [hi]
  show _ = max (_ + _) (Ideal.ofBits .f32 0x00000000#32)
  rw [Ideal.ofBits_zero_f32]

/-- The second layer's product is the matrix product of the hidden features and the second weight matrix. -/
theorem v71_eq (x0 : (⟨S200000x128, .f32⟩ : BufTy).Contents (Elt Ideal)) (x1 : (⟨S2x6400000, .i32⟩ : BufTy).Contents (Elt Ideal))
    (x2 : (⟨S128x15, .f32⟩ : BufTy).Contents (Elt Ideal)) (x3 : (⟨S15, .f32⟩ : BufTy).Contents (Elt Ideal))
    (x4 : (⟨S15x32, .f32⟩ : BufTy).Contents (Elt Ideal)) :
    val_main_v71 (F := Ideal) x0 x1 x2 x3 x4
      = GCN.matMul (val_main_v47 (F := Ideal) x0 x1 x2 x3 : S200000x15.Idx → EReal) (x4 : S15x32.Idx → EReal) := by
  funext i
  obtain ⟨p, e, rfl⟩ : ∃ (p : Fin 200000) (e : Fin 32), i = ix2 p e := ⟨i 0, i 1, eq_ix2 i⟩
  rw [val_main_v71_apply, GCN.matMul_apply]
  refine Finset.sum_congr rfl fun k _ => ?_
  have hl : lidx_main_v71 (ix2 p e) k = ix2 p k := funext fun a => by
    match a with
    | ⟨0, _⟩ => rfl
    | ⟨1, _⟩ => rfl
  have hr : ridx_main_v71 (ix2 p e) k = ix2 k e := funext fun a => by
    match a with
    | ⟨0, _⟩ => rfl
    | ⟨1, _⟩ => rfl
  rw [hl, hr]

/-- The second layer's bias: for any one-row matrix `b` whose entries are the bias vector's, the reference's result
    is the aggregate plus that row. -/
theorem v87_eq (x0 : (⟨S200000x128, .f32⟩ : BufTy).Contents (Elt Ideal)) (x1 : (⟨S2x6400000, .i32⟩ : BufTy).Contents (Elt Ideal))
    (x2 : (⟨S128x15, .f32⟩ : BufTy).Contents (Elt Ideal)) (x3 : (⟨S15, .f32⟩ : BufTy).Contents (Elt Ideal))
    (x4 : (⟨S15x32, .f32⟩ : BufTy).Contents (Elt Ideal)) (x5 : (⟨S32, .f32⟩ : BufTy).Contents (Elt Ideal))
    (b : S1x32.Idx → EReal) (hb : ∀ e : Fin 32, b (ix2 (0 : Fin 1) e) = (x5 : S32.Idx → EReal) (ix1 e)) :
    GCN.addRow (val_main_v84 (F := Ideal) x0 x1 x2 x3 x4 : S200000x32.Idx → EReal) b = val_main_v87 (F := Ideal) x0 x1 x2 x3 x4 x5 := by
  funext i
  obtain ⟨p, e, rfl⟩ : ∃ (p : Fin 200000) (e : Fin 32), i = ix2 p e := ⟨i 0, i 1, eq_ix2 i⟩
  rw [GCN.addRow_apply, hb, val_main_v87_apply, val_main_v86_apply, val_main_v85_apply]
  have hi : idx_main_v85 (idx_main_v86 (ix2 p e)) = ix1 e := funext fun a => by
    match a with
    | ⟨0, _⟩ => rfl
  rw [hi]
  rfl

/-- The second layer's edge weights are the first layer's: the same operations of the same edge list. -/
theorem v70_eq (x1 : (⟨S2x6400000, .i32⟩ : BufTy).Contents (Elt Ideal)) :
    val_main_v70 (F := Ideal) x1 = val_main_v29 (F := Ideal) x1 := rfl

end Cert.ReferenceIdeal.Stages

end
-- ==== Proof.KStages.lean ====
/-
  The kernel program's buffers, boundary by boundary, as the reference's own stages of the launch contents.

  The program is four kernel launches among stretches of host operations. Before the first launch the host builds the
  edge lists with self-loops (sources, targets) and the degree-normalised edge weights. Each layer is then: a launch
  multiplying by the weight matrix; host operations gathering the rows at the sources, scaling them by the edge
  weights and summing them at the targets; a launch adding the bias row (and, in the first layer, clamping at zero).
  The host operations are the reference's own, so each boundary's buffers are the reference's stages by unfolding;
  each launch's output is the reference's dense step by the whole-array reading of the launch.
-/
import proofs.«176888_j1159641170174_1_alg».proof.Proof.Gen.KernelIdeal.Frame
import proofs.«176888_j1159641170174_1_alg».proof.Proof.KRegion0
import proofs.«176888_j1159641170174_1_alg».proof.Proof.KRegion1
import proofs.«176888_j1159641170174_1_alg».proof.Proof.KRegion2
import proofs.«176888_j1159641170174_1_alg».proof.Proof.KRegion3
import proofs.«176888_j1159641170174_1_alg».proof.Proof.RefStages
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- The fold's remaining steps, one rewriting rule at a time: the one-pass rewriting does not reach the steps that sit
    inside the two-element list of a `concatenate`. -/
local macro "finish_results" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The launch contents of the six arguments -/

abbrev X0 : (⟨Cert.ReferenceIdeal.S200000x128, .f32⟩ : BufTy).Contents (Elt Ideal) := m ((c : Thread nD τ).loc main_arg0)
abbrev X1 : (⟨Cert.ReferenceIdeal.S2x6400000, .i32⟩ : BufTy).Contents (Elt Ideal) := m ((c : Thread nD τ).loc main_arg1)
abbrev X2 : (⟨Cert.ReferenceIdeal.S128x15, .f32⟩ : BufTy).Contents (Elt Ideal) := m ((c : Thread nD τ).loc main_arg2)
abbrev X3 : (⟨Cert.ReferenceIdeal.S15, .f32⟩ : BufTy).Contents (Elt Ideal) := m ((c : Thread nD τ).loc main_arg3)
abbrev X4 : (⟨Cert.ReferenceIdeal.S15x32, .f32⟩ : BufTy).Contents (Elt Ideal) := m ((c : Thread nD τ).loc main_arg4)
abbrev X5 : (⟨Cert.ReferenceIdeal.S32, .f32⟩ : BufTy).Contents (Elt Ideal) := m ((c : Thread nD τ).loc main_arg5)

/-! ## Before the first launch: the edge lists and the edge weights; the arguments untouched -/

theorem w3_arg0 : W3 m ρ c (Proc.devRef .tc main_arg0) = X0 m c := by
  show StableHlo.after hostOps0_2 (StableHlo.after hostOps0_1 (StableHlo.after hostOps0 (W0 m ρ c))) (Proc.devRef .tc main_arg0) = _
  simp only [hostOps0_2, hostOps0_1, hostOps0]
  after_results

theorem w3_arg2 : W3 m ρ c (Proc.devRef .tc main_arg2) = X2 m c := by
  show StableHlo.after hostOps0_2 (StableHlo.after hostOps0_1 (StableHlo.after hostOps0 (W0 m ρ c))) (Proc.devRef .tc main_arg2) = _
  simp only [hostOps0_2, hostOps0_1, hostOps0]
  after_results

theorem w3_arg3 : W3 m ρ c (Proc.devRef .tc main_arg3) = X3 m c := by
  show StableHlo.after hostOps0_2 (StableHlo.after hostOps0_1 (StableHlo.after hostOps0 (W0 m ρ c))) (Proc.devRef .tc main_arg3) = _
  simp only [hostOps0_2, hostOps0_1, hostOps0]
  after_results

theorem w3_arg4 : W3 m ρ c (Proc.devRef .tc main_arg4) = X4 m c := by
  show StableHlo.after hostOps0_2 (StableHlo.after hostOps0_1 (StableHlo.after hostOps0 (W0 m ρ c))) (Proc.devRef .tc main_arg4) = _
  simp only [hostOps0_2, hostOps0_1, hostOps0]
  after_results

theorem w3_arg5 : W3 m ρ c (Proc.devRef .tc main_arg5) = X5 m c := by
  show StableHlo.after hostOps0_2 (StableHlo.after hostOps0_1 (StableHlo.after hostOps0 (W0 m ρ c))) (Proc.devRef .tc main_arg5) = _
  simp only [hostOps0_2, hostOps0_1, hostOps0]
  after_results

/-- The source list with self-loops. -/
theorem w3_v3 : W3 m ρ c (Proc.devRef .tc main_v3) = val_main_v3 (F := Ideal) (X1 m c) := by
  show StableHlo.after hostOps0_2 (StableHlo.after hostOps0_1 (StableHlo.after hostOps0 (W0 m ρ c))) (Proc.devRef .tc main_v3) = _
  simp only [hostOps0_2, hostOps0_1, hostOps0]
  after_results
  rfl

/-- The target list with self-loops. -/
theorem w3_v6 : W3 m ρ c (Proc.devRef .tc main_v6) = val_main_v6 (F := Ideal) (X1 m c) := by
  show StableHlo.after hostOps0_2 (StableHlo.after hostOps0_1 (StableHlo.after hostOps0 (W0 m ρ c))) (Proc.devRef .tc main_v6) = _
  simp only [hostOps0_2, hostOps0_1, hostOps0]
  after_results
  rfl

/-- Whether each node's degree is positive (the degree counts the edges into the node, self-loop included). -/
theorem w1_v12 : W1 m ρ c (Proc.devRef .tc main_v12) = val_main_v12 (F := Ideal) (X1 m c) := by
  show StableHlo.after hostOps0 (W0 m ρ c) (Proc.devRef .tc main_v12) = _
  simp only [hostOps0]
  after_results_simp
  finish_results
  rfl

/-- The inverse square root of each node's degree. -/
theorem w1_v13 : W1 m ρ c (Proc.devRef .tc main_v13) = val_main_v13 (F := Ideal) (X1 m c) := by
  show StableHlo.after hostOps0 (W0 m ρ c) (Proc.devRef .tc main_v13) = _
  simp only [hostOps0]
  after_results_simp
  finish_results
  rfl

theorem w1_cst2 : W1 m ρ c (Proc.devRef .tc main_cst_2) = val_main_cst_2 (F := Ideal) := by
  show StableHlo.after hostOps0 (W0 m ρ c) (Proc.devRef .tc main_cst_2) = _
  simp only [hostOps0]
  after_results_simp
  rfl

/-- The outlined selection, read off: where the mask holds the first operand, elsewhere the scalar broadcast. -/
theorem select14 (V : Valuation τ sig (Elt Ideal)) :
    StableHlo.after hostOps0_1 V (Proc.devRef .tc main_v14)
      = select (V (Proc.devRef .tc main_v12)) (V (Proc.devRef .tc main_v13))
          (broadcastInDim S200000 ![] bcast_S_S200000 (id (V (Proc.devRef .tc main_cst_2)))) := by
  simp only [hostOps0_1]
  after_results
  rfl

/-- The inverse square root where the degree is positive, zero elsewhere. -/
theorem w2_v14 : W2 m ρ c (Proc.devRef .tc main_v14) = val_main_v14 (F := Ideal) (X1 m c) := by
  show StableHlo.after hostOps0_1 (W1 m ρ c) (Proc.devRef .tc main_v14) = _
  rw [select14, w1_v12, w1_v13, w1_cst2]
  rfl

theorem w2_v3 : W2 m ρ c (Proc.devRef .tc main_v3) = val_main_v3 (F := Ideal) (X1 m c) := by
  show StableHlo.after hostOps0_1 (StableHlo.after hostOps0 (W0 m ρ c)) (Proc.devRef .tc main_v3) = _
  simp only [hostOps0_1, hostOps0]
  after_results
  rfl

theorem w2_v6 : W2 m ρ c (Proc.devRef .tc main_v6) = val_main_v6 (F := Ideal) (X1 m c) := by
  show StableHlo.after hostOps0_1 (StableHlo.after hostOps0 (W0 m ρ c)) (Proc.devRef .tc main_v6) = _
  simp only [hostOps0_1, hostOps0]
  after_results
  rfl

set_option maxHeartbeats 1000000 in
/-- The edge weights: the inverse square roots of the two endpoints' degrees, multiplied. -/
theorem w3_v29 : W3 m ρ c (Proc.devRef .tc main_v29) = val_main_v29 (F := Ideal) (X1 m c) := by
  have h14 := w2_v14 m ρ c
  have h3 := w2_v3 m ρ c
  have h6 := w2_v6 m ρ c
  show StableHlo.after hostOps0_2 (W2 m ρ c) (Proc.devRef .tc main_v29) = _
  generalize W2 m ρ c = V at h14 h3 h6 ⊢
  simp only [hostOps0_2]
  after_results_simp
  rw [h14, h3, h6]
  rfl

/-! ## The first launch: the features times the first weight matrix -/

theorem w4_v3 : W4 m ρ c (Proc.devRef .tc main_v3) = val_main_v3 (F := Ideal) (X1 m c) :=
  (W4_of_ne m ρ c main_v3 (by decide)).trans (w3_v3 m ρ c)

theorem w4_v6 : W4 m ρ c (Proc.devRef .tc main_v6) = val_main_v6 (F := Ideal) (X1 m c) :=
  (W4_of_ne m ρ c main_v6 (by decide)).trans (w3_v6 m ρ c)

theorem w4_v29 : W4 m ρ c (Proc.devRef .tc main_v29) = val_main_v29 (F := Ideal) (X1 m c) :=
  (W4_of_ne m ρ c main_v29 (by decide)).trans (w3_v29 m ρ c)

theorem w4_arg3 : W4 m ρ c (Proc.devRef .tc main_arg3) = X3 m c :=
  (W4_of_ne m ρ c main_arg3 (by decide)).trans (w3_arg3 m ρ c)

theorem w4_arg4 : W4 m ρ c (Proc.devRef .tc main_arg4) = X4 m c :=
  (W4_of_ne m ρ c main_arg4 (by decide)).trans (w3_arg4 m ρ c)

theorem w4_arg5 : W4 m ρ c (Proc.devRef .tc main_arg5) = X5 m c :=
  (W4_of_ne m ρ c main_arg5 (by decide)).trans (w3_arg5 m ρ c)

theorem w4_v30 : W4 m ρ c (Proc.devRef .tc main_v30) = val_main_v30 (F := Ideal) (X0 m c) (X2 m c) :=
  (W4_arr m ρ c 2).trans ((Regions0.final0 (V3 m ρ) c).trans (by
    show GCN.matMul (W3 m ρ c (Proc.devRef .tc main_arg0)) (W3 m ρ c (Proc.devRef .tc main_arg2)) = _
    rw [w3_arg0, w3_arg2]
    exact (Cert.ReferenceIdeal.Stages.v30_eq _ _).symm))

/-! ## The first aggregation, and the first bias as a row -/

theorem w5_v3 : W5 m ρ c (Proc.devRef .tc main_v3) = val_main_v3 (F := Ideal) (X1 m c) :=
  (show StableHlo.after hostOps1 (W4 m ρ c) (Proc.devRef .tc main_v3) = W4 m ρ c (Proc.devRef .tc main_v3) by
    simp only [hostOps1]
    after_results).trans (w4_v3 m ρ c)

theorem w5_v6 : W5 m ρ c (Proc.devRef .tc main_v6) = val_main_v6 (F := Ideal) (X1 m c) :=
  (show StableHlo.after hostOps1 (W4 m ρ c) (Proc.devRef .tc main_v6) = W4 m ρ c (Proc.devRef .tc main_v6) by
    simp only [hostOps1]
    after_results).trans (w4_v6 m ρ c)

theorem w5_v29 : W5 m ρ c (Proc.devRef .tc main_v29) = val_main_v29 (F := Ideal) (X1 m c) :=
  (show StableHlo.after hostOps1 (W4 m ρ c) (Proc.devRef .tc main_v29) = W4 m ρ c (Proc.devRef .tc main_v29) by
    simp only [hostOps1]
    after_results).trans (w4_v29 m ρ c)

theorem w5_arg4 : W5 m ρ c (Proc.devRef .tc main_arg4) = X4 m c :=
  (show StableHlo.after hostOps1 (W4 m ρ c) (Proc.devRef .tc main_arg4) = W4 m ρ c (Proc.devRef .tc main_arg4) by
    simp only [hostOps1]
    after_results).trans (w4_arg4 m ρ c)

theorem w5_arg5 : W5 m ρ c (Proc.devRef .tc main_arg5) = X5 m c :=
  (show StableHlo.after hostOps1 (W4 m ρ c) (Proc.devRef .tc main_arg5) = W4 m ρ c (Proc.devRef .tc main_arg5) by
    simp only [hostOps1]
    after_results).trans (w4_arg5 m ρ c)

set_option maxHeartbeats 1000000 in
theorem w5_v43 : W5 m ρ c (Proc.devRef .tc main_v43) = val_main_v43 (F := Ideal) (X0 m c) (X1 m c) (X2 m c) := by
  show StableHlo.after hostOps1 (W4 m ρ c) (Proc.devRef .tc main_v43) = _
  simp only [hostOps1]
  after_results_simp
  rw [w4_v3, w4_v6, w4_v29, w4_v30]
  rfl

theorem w5_v44 : W5 m ρ c (Proc.devRef .tc main_v44) = shapeCast S1x15 (X3 m c) shapeCasts_S15_S1x15 := by
  show StableHlo.after hostOps1 (W4 m ρ c) (Proc.devRef .tc main_v44) = _
  simp only [hostOps1]
  after_results
  rw [w4_arg3]
  rfl

/-! ## The second launch: the bias row added, clamped at zero -/

theorem w6_v3 : W6 m ρ c (Proc.devRef .tc main_v3) = val_main_v3 (F := Ideal) (X1 m c) :=
  (W6_of_ne m ρ c main_v3 (by decide)).trans (w5_v3 m ρ c)

theorem w6_v6 : W6 m ρ c (Proc.devRef .tc main_v6) = val_main_v6 (F := Ideal) (X1 m c) :=
  (W6_of_ne m ρ c main_v6 (by decide)).trans (w5_v6 m ρ c)

theorem w6_v29 : W6 m ρ c (Proc.devRef .tc main_v29) = val_main_v29 (F := Ideal) (X1 m c) :=
  (W6_of_ne m ρ c main_v29 (by decide)).trans (w5_v29 m ρ c)

theorem w6_arg4 : W6 m ρ c (Proc.devRef .tc main_arg4) = X4 m c :=
  (W6_of_ne m ρ c main_arg4 (by decide)).trans (w5_arg4 m ρ c)

theorem w6_arg5 : W6 m ρ c (Proc.devRef .tc main_arg5) = X5 m c :=
  (W6_of_ne m ρ c main_arg5 (by decide)).trans (w5_arg5 m ρ c)

theorem w6_v45 : W6 m ρ c (Proc.devRef .tc main_v45) = val_main_v47 (F := Ideal) (X0 m c) (X1 m c) (X2 m c) (X3 m c) :=
  (W6_arr m ρ c 2).trans ((Regions1.final1 (V5 m ρ) c).trans (by
    show GCN.relu (GCN.addRow (W5 m ρ c (Proc.devRef .tc main_v43)) (W5 m ρ c (Proc.devRef .tc main_v44))) = _
    rw [w5_v43, w5_v44]
    exact Cert.ReferenceIdeal.Stages.v47_eq _ _ _ _ _ (fun e => shapeCast_a_1a_apply _ _ 0 e)))

/-! ## The third launch: the hidden features times the second weight matrix -/

theorem w7_v3 : W7 m ρ c (Proc.devRef .tc main_v3) = val_main_v3 (F := Ideal) (X1 m c) :=
  (W7_of_ne m ρ c main_v3 (by decide)).trans (w6_v3 m ρ c)

theorem w7_v6 : W7 m ρ c (Proc.devRef .tc main_v6) = val_main_v6 (F := Ideal) (X1 m c) :=
  (W7_of_ne m ρ c main_v6 (by decide)).trans (w6_v6 m ρ c)

theorem w7_v29 : W7 m ρ c (Proc.devRef .tc main_v29) = val_main_v29 (F := Ideal) (X1 m c) :=
  (W7_of_ne m ρ c main_v29 (by decide)).trans (w6_v29 m ρ c)

theorem w7_arg5 : W7 m ρ c (Proc.devRef .tc main_arg5) = X5 m c :=
  (W7_of_ne m ρ c main_arg5 (by decide)).trans (w6_arg5 m ρ c)

theorem w7_v46 : W7 m ρ c (Proc.devRef .tc main_v46) = val_main_v71 (F := Ideal) (X0 m c) (X1 m c) (X2 m c) (X3 m c) (X4 m c) :=
  (W7_arr m ρ c 2).trans ((Regions2.final2 (V6 m ρ) c).trans (by
    show GCN.matMul (W6 m ρ c (Proc.devRef .tc main_v45)) (W6 m ρ c (Proc.devRef .tc main_arg4)) = _
    rw [w6_v45, w6_arg4]
    exact (Cert.ReferenceIdeal.Stages.v71_eq _ _ _ _ _).symm))

/-! ## The second aggregation, and the second bias as a row -/

set_option maxHeartbeats 1000000 in
theorem w8_v59 : W8 m ρ c (Proc.devRef .tc main_v59) = val_main_v84 (F := Ideal) (X0 m c) (X1 m c) (X2 m c) (X3 m c) (X4 m c) := by
  show StableHlo.after hostOps3 (W7 m ρ c) (Proc.devRef .tc main_v59) = _
  simp only [hostOps3]
  after_results_simp
  rw [w7_v3, w7_v6, w7_v29, w7_v46]
  unfold val_main_v84 val_main_v81 val_main_v80 val_main_v79
  rw [Cert.ReferenceIdeal.Stages.v70_eq]
  rfl

theorem w8_v60 : W8 m ρ c (Proc.devRef .tc main_v60) = shapeCast S1x32 (X5 m c) shapeCasts_S32_S1x32 := by
  show StableHlo.after hostOps3 (W7 m ρ c) (Proc.devRef .tc main_v60) = _
  simp only [hostOps3]
  after_results
  rw [w7_arg5]
  rfl

/-! ## The fourth launch: the bias row added; the result -/

/-- The result buffer after the run is the reference's result stage of the launch contents. -/
theorem w9_v61 : W9 m ρ c (Proc.devRef .tc main_v61)
    = val_main_v87 (F := Ideal) (X0 m c) (X1 m c) (X2 m c) (X3 m c) (X4 m c) (X5 m c) :=
  (W9_arr m ρ c 2).trans ((Regions3.final3 (V8 m ρ) c).trans (by
    show GCN.addRow (W8 m ρ c (Proc.devRef .tc main_v59)) (W8 m ρ c (Proc.devRef .tc main_v60)) = _
    rw [w8_v59, w8_v60]
    exact Cert.ReferenceIdeal.Stages.v87_eq _ _ _ _ _ _ _ (fun e => shapeCast_a_1a_apply _ _ 0 e)))

end Cert.KernelIdeal.Stages

end
-- ==== Proof.Claims.lean ====
/-
  The five claims.

  The three frames: the two kernel programs run (terminate, no fault) with their arguments unchanged, by the generated
  frame certificates; the reference runs with its arguments unchanged, by its run read back. The idealized kernel
  program is the printed one read at the extended reals (no operation was rewritten), so `preserves` is trivial.
  The value claim: the kernel program's result buffer ends at the last boundary's contents, which are the reference's
  result stage of the launch contents; the reference's result is that stage of its own launch contents; the two
  launch memories agree on the arguments.
-/
import proofs.«176888_j1159641170174_1_alg».proof.Defs
import proofs.«176888_j1159641170174_1_alg».proof.Proof.Gen.Pre_finite_inputs
import proofs.«176888_j1159641170174_1_alg».proof.Proof.Gen.Kernel.Frame
import proofs.«176888_j1159641170174_1_alg».proof.Proof.Gen.KernelIdeal.Frame
import proofs.«176888_j1159641170174_1_alg».proof.Proof.KRun
import proofs.«176888_j1159641170174_1_alg».proof.Proof.KStages
import proofs.«176888_j1159641170174_1_alg».proof.Proof.RefRead

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result: the two-layer graph convolution of the launch contents. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq m' c, (hagree c).1, (hagree c).2.1, (hagree c).2.2.1, (hagree c).2.2.2.1,
    (hagree c).2.2.2.2.1, (hagree c).2.2.2.2.2]
  exact (Cert.KernelIdeal.Stages.w9_v61 m ρ c).symm

end Cert.Proof.Claims

end
-- ==== Proof.lean ====
/-
  The certificate of a two-layer graph convolution: a kernel program of four launches (two products with the weight
  matrices, two bias maps, the first clamped at zero) among host gathers and scatter-sums over the edge list, against
  a reference that does the same with host products and broadcasts. Over the extended reals the two end with the same
  result array: Proof/Claims.lean states the five claims, over the modules it imports; here they are assembled behind
  the witnesses of the programs' stated facts.
-/
import proofs.«176888_j1159641170174_1_alg».proof.Defs
import proofs.«176888_j1159641170174_1_alg».proof.Proof.Gen.Kernel
import proofs.«176888_j1159641170174_1_alg».proof.Proof.Gen.KernelIdeal
import proofs.«176888_j1159641170174_1_alg».proof.Proof.Gen.ReferenceIdeal
import proofs.«176888_j1159641170174_1_alg».proof.Proof.Gen.Pre_finite_inputs
import proofs.«176888_j1159641170174_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
